-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 1) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .i32⟩
  | .hbm, ⟨5, _⟩ => ⟨S16x2048x64, .f32⟩
  | .hbm, ⟨6, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .i32 = 32 ∨ (Rect.block (s := S16x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .f32⟩
  | .hbm, ⟨26, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.AttnSpec.lean ====
/-
  Masked scaled-dot-product attention as one function of the argument arrays, over the extended reals.

  For a batch `b`, a query row `r` and a key `k` the SCORE is the dot product of query row `r` with key row `k`
  over the 64 features, scaled by 1/8, and replaced by the fill value −10⁹ where the mask bit is set.  A row of
  scores `s` is turned into weights by the softmax: with `μ` the maximum of the row (folded from −∞),
  `w k = exp (s k − μ) / Σ_j exp (s j − μ)`.  The two results are the weights themselves, and the weighted sums
  `Σ_k w k · V[b, k, e]` of the value rows.

  Two spellings of the score occur.  One scales the query entry first, `Σ_d (Q[b,r,d] · ⅛) · K[b,k,d]`, and tests
  the mask after it has been widened to 32 bits; the other divides the finished dot product,
  `(Σ_d Q[b,r,d] · K[b,k,d]) / 8`, and tests the mask bit itself.  On finite queries and keys they agree: every
  term is a real number, so the common factor ⅛ moves out of the finite sum, and dividing by 8 is multiplying by ⅛;
  widening a bit and comparing it with zero gives the bit back.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The word of −∞, from which a row's maximum is folded. -/
abbrev negInf : EReal := Ideal.ofBits .f32 0xFF800000#32

/-- The fill value −10⁹ written where the mask is set. -/
abbrev fill : EReal := Ideal.ofBits .f32 0xCE6E6B28#32

/-- The scale ⅛ as the kernel spells it. -/
abbrev eighth : EReal := Ideal.ofBits .f32 0x3E000000#32

/-- The divisor 8 as the reference spells it. -/
abbrev eight : EReal := Ideal.ofBits .f32 0x41000000#32

/-- The pattern `0x3E000000` denotes the real ⅛. -/
theorem eighth_eq : eighth = ((1 / 8 : ℝ) : EReal) := by
  simp [eighth, Ideal.ofBits, Ideal.ieee, -EReal.coe_mul]; norm_num

/-- The pattern `0x41000000` denotes the real 8. -/
theorem eight_eq : eight = ((8 : ℝ) : EReal) := by
  simp [eight, Ideal.ofBits, Ideal.ieee, -EReal.coe_mul]; norm_num

/-- The softmax weight of entry `q` of a row of scores: `exp (s q − μ)` over the sum of all `exp (s k − μ)`,
    `μ` the row's maximum. -/
def softmaxRow {n : ℕ} (s : Fin n → EReal) (q : Fin n) : EReal :=
  Ideal.div (Ideal.exp (s q - (Finset.univ : Finset (Fin n)).fold max negInf s))
    (∑ k : Fin n, Ideal.exp (s k - (Finset.univ : Finset (Fin n)).fold max negInf s))

/-- The shape of the queries, keys and values. -/
abbrev SQ : Shape := ⟨3, ![16, 2048, 64]⟩
/-- The shape of the mask and of the weights. -/
abbrev SA : Shape := ⟨3, ![16, 2048, 2048]⟩

/-- The score with the query scaled first and the mask widened to 32 bits before it is tested. -/
def scoreScaled (Q K : SQ.Idx → EReal) (M : SA.Idx → BitVec 1) (b : Fin 16) (r k : Fin 2048) : EReal :=
  Scalar.select (IntOp.cmpi .ne ((M (ix3 b r k)).setWidth 32) 0#32) fill
    (∑ d : Fin 64, (Q (ix3 b r d) * eighth) * K (ix3 b k d))

/-- The score with the finished dot product divided by 8 and the mask bit tested as it is. -/
def scoreDivided (Q K : SQ.Idx → EReal) (M : SA.Idx → BitVec 1) (b : Fin 16) (r k : Fin 2048) : EReal :=
  Scalar.select (M (ix3 b r k)) fill (Ideal.div (∑ d : Fin 64, Q (ix3 b r d) * K (ix3 b k d)) eight)

/-- The attention weights from a score function: row `(b, r)` of the scores through the softmax. -/
def weights (s : Fin 16 → Fin 2048 → Fin 2048 → EReal) : SA.Idx → EReal :=
  fun i => softmaxRow (s (i 0) (i 1)) (i 2)

/-- The context from a score function and the values: the weights' sums of the value rows. -/
def context (s : Fin 16 → Fin 2048 → Fin 2048 → EReal) (V : SQ.Idx → EReal) : SQ.Idx → EReal :=
  fun i => ∑ k : Fin 2048, softmaxRow (s (i 0) (i 1)) k * V (ix3 (i 0) k (i 2))

/-- A finite sum of real numbers, read in the extended reals, is the sum of the numbers read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Widening a bit to 32 bits and comparing it with zero gives the bit back. -/
theorem widened_ne_zero (x : BitVec 1) : IntOp.cmpi .ne (x.setWidth 32) 0#32 = x := by
  rcases BitVec.eq_zero_or_eq_one x with h | h <;> subst h <;> decide

/-- On real entries, scaling each query entry by ⅛ before the dot product is dividing the dot product by 8. -/
theorem scaled_dot_eq {n : ℕ} (q k : Fin n → EReal) (hq : ∀ d, ∃ x : ℝ, q d = x) (hk : ∀ d, ∃ x : ℝ, k d = x) :
    ∑ d : Fin n, (q d * eighth) * k d = Ideal.div (∑ d : Fin n, q d * k d) eight := by
  choose q' hq' using hq
  choose k' hk' using hk
  rw [eighth_eq, eight_eq, Ideal.div_coe (by norm_num : (8 : ℝ) ≠ 0)]
  simp only [hq', hk', ← EReal.coe_mul]
  rw [← coe_sum, ← coe_sum, ← EReal.coe_mul, Finset.sum_mul]
  refine congrArg _ (Finset.sum_congr rfl fun d _ => ?_)
  ring

/-- On finite queries and keys the two spellings of the score are one function. -/
theorem scoreScaled_eq_scoreDivided (Q K : SQ.Idx → EReal) (M : SA.Idx → BitVec 1)
    (hQ : ∀ i, ∃ x : ℝ, Q i = x) (hK : ∀ i, ∃ x : ℝ, K i = x) : scoreScaled Q K M = scoreDivided Q K M := by
  funext b r k
  unfold scoreScaled scoreDivided
  rw [widened_ne_zero, scaled_dot_eq (fun d => Q (ix3 b r d)) (fun d => K (ix3 b k d)) (fun d => hQ _) (fun d => hK _)]

end Cert.Attn

end
-- ==== Proof.LibRowMax.lean ====
/-
  The maximum along the lanes of an `[a, b]` array, read at a row, at the ideal values.

  In a kernel (`vector.multi_reduction <maximumf>` over axis 1, started from the word of −∞) and on the host (a
  one-operand `stablehlo.reduce` over axis 1 whose body is the maximum) the entry at row `p` is the same thing: the
  maximum, folded from the starting value over the `b` entries of that row, in any order.  Both are stated with the
  row's entries written `src (ix2 p k)`, so the two sides of a kernel-against-reference proof meet as one fold.
-/
import Idealize.ShloMosaic.Lib.ValueIdx
import Idealize.ShloMosaic.PureOps.Ideal.Laws

noncomputable section

namespace Cert.Lib.RowMax

open Idealize.ShloMosaic Idealize.ShloMosaic.ValueIdx

/-- A kernel's lane maximum of an `[a, b]` tile, at row `p`: the fold of `max` from the word of −∞ over the row. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun g => (Finset.univ : Finset (Fin b)).fold max (Ideal.ofBits .f32 0xFF800000#32) g) (funext fun k => ?_)
  exact congrArg src (funext fun ax => Fin.ext (by match ax with | ⟨0, _⟩ => rfl | ⟨1, _⟩ => rfl))

/-- The host's maximum over axis 1 of an `[a, b]` array, at row `r`: the fold of `max` from the initial value over the row. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun g => (Finset.univ : Finset (Fin b)).fold max (init (Shape.Idx.first hu)) g) (funext fun k => ?_)
  exact congrArg x (funext fun ax => Fin.ext (by match ax with | ⟨0, _⟩ => rfl | ⟨1, _⟩ => rfl))

end Cert.Lib.RowMax

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.LibSoftmaxTile.lean ====
/-
  The softmax along the lanes of an `[a, b]` tile, as a kernel spells it with keepdims statistics, read at an entry,
  at the ideal values.

  The kernel takes the lane maximum of the tile from the word of −∞, keeps it as an `[a, 1]` column, spreads the
  column over the `b` lanes and subtracts; exponentiates; takes the lane sum of the exponentials from zero, keeps and
  spreads it the same way, and divides.  At `(p, q)` that is `exp (S p q − μ) / Σ_k exp (S p k − μ)` with
  `μ` the fold of `max` from −∞ over row `p`: every spread statistic reads, at any lane, the row's own statistic.
-/
import proofs.«128522_j60739427500310_2_alg».proof.Proof.AttnSpec
import proofs.«128522_j60739427500310_2_alg».proof.Proof.LibRowMax
import proofs.«128522_j60739427500310_2_alg».proof.Proof.LibKeepdims

noncomputable section

open scoped BigOperators

namespace Cert.Lib.SoftmaxTile

open Idealize.ShloMosaic Idealize.ShloMosaic.ValueIdx Cert.Attn

variable {a b : ℕ}

/-- The tile less its rows' maxima, exponentiated: the numerators of the softmax. -/
def expTile (S : FVec Ideal ⟨2, ![a, b]⟩ .f32) (hr : (⟨2, ![a, b]⟩ : Shape).Reduces [1] ⟨1, ![a]⟩)
    (hφ : FKind.Formats .f32) (hm : (0xFF800000#32 : BitVec 32) = 0xFF800000#32)
    (hsc : (⟨1, ![a]⟩ : Shape).ShapeCasts ⟨2, ![a, 1]⟩) (hbc : (⟨2, ![a, 1]⟩ : Shape).Broadcasts ⟨2, ![a, b]⟩) :
    FVec Ideal ⟨2, ![a, b]⟩ .f32 :=
  exp (subf S (broadcastTo ⟨2, ![a, b]⟩ (shapeCast ⟨2, ![a, 1]⟩
    (multiReduction (F := Ideal) .maximumf [1] ⟨1, ![a]⟩ S 0xFF800000#32 hr hφ hm) hsc) hbc))

/-- A numerator at `(p, k)`: the exponential of the entry less the fold of `max` from −∞ over row `p`. -/
theorem expTile_apply (S : FVec Ideal ⟨2, ![a, b]⟩ .f32) (hr : (⟨2, ![a, b]⟩ : Shape).Reduces [1] ⟨1, ![a]⟩)
    (hφ : FKind.Formats .f32) (hm : (0xFF800000#32 : BitVec 32) = 0xFF800000#32)
    (hsc : (⟨1, ![a]⟩ : Shape).ShapeCasts ⟨2, ![a, 1]⟩) (hbc : (⟨2, ![a, 1]⟩ : Shape).Broadcasts ⟨2, ![a, b]⟩)
    (p : Fin a) (k : Fin b) :
    expTile S hr hφ hm hsc hbc (ix2 p k)
      = Ideal.exp (S (ix2 p k) - (Finset.univ : Finset (Fin b)).fold max negInf (fun j => S (ix2 p j))) := by
  show Ideal.exp (S (ix2 p k) - broadcastTo ⟨2, ![a, b]⟩ (shapeCast ⟨2, ![a, 1]⟩
    (multiReduction (F := Ideal) .maximumf [1] ⟨1, ![a]⟩ S 0xFF800000#32 hr hφ hm) hsc) hbc (ix2 p k)) = _
  rw [Cert.Lib.Keepdims.broadcastTo_a1_ab_apply, Cert.Lib.Keepdims.shapeCast_a_a1_apply, Cert.Lib.RowMax.rowMax_apply]

/-- The softmax of the tile at `(p, q)`: the numerator over the lane sum of the row's numerators. -/
theorem softmaxTile_apply (S : FVec Ideal ⟨2, ![a, b]⟩ .f32) (hr : (⟨2, ![a, b]⟩ : Shape).Reduces [1] ⟨1, ![a]⟩)
    (hφ : FKind.Formats .f32) (hm : (0xFF800000#32 : BitVec 32) = 0xFF800000#32)
    (hz : (0x00000000#32 : BitVec 32) = 0x00000000#32)
    (hsc : (⟨1, ![a]⟩ : Shape).ShapeCasts ⟨2, ![a, 1]⟩) (hbc : (⟨2, ![a, 1]⟩ : Shape).Broadcasts ⟨2, ![a, b]⟩)
    (p : Fin a) (q : Fin b) :
    divf (expTile S hr hφ hm hsc hbc) (broadcastTo ⟨2, ![a, b]⟩ (shapeCast ⟨2, ![a, 1]⟩
      (multiReduction (F := Ideal) .add [1] ⟨1, ![a]⟩ (expTile S hr hφ hm hsc hbc) 0x00000000#32 hr hφ hz) hsc) hbc) (ix2 p q)
      = softmaxRow (fun k => S (ix2 p k)) q := by
  show Ideal.div (expTile S hr hφ hm hsc hbc (ix2 p q)) (broadcastTo ⟨2, ![a, b]⟩ (shapeCast ⟨2, ![a, 1]⟩
      (multiReduction (F := Ideal) .add [1] ⟨1, ![a]⟩ (expTile S hr hφ hm hsc hbc) 0x00000000#32 hr hφ hz) hsc) hbc (ix2 p q)) = _
  rw [Cert.Lib.Keepdims.broadcastTo_a1_ab_apply, Cert.Lib.Keepdims.shapeCast_a_a1_apply, Cert.Lib.Keepdims.rowSum_apply]
  simp only [expTile_apply]
  rfl

end Cert.Lib.SoftmaxTile

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.KernelTile.lean ====
/-
  What the kernel body computes from one grid point's blocks, read at an entry.

  The body receives a `[1, 512, 64]` block of queries, `[1, 2048, 64]` blocks of keys and of values, and a
  `[1, 512, 2048]` block of the widened mask.  Row `p` of its score tile is, at key `k`, the dot product over the 64
  features of the query row scaled by ⅛ with key row `k` (a matrix product contracting the feature axis of both
  operands into a zero accumulator; rounding the operands to bf16 is the identity on the exact values), replaced by
  −10⁹ where the widened mask word is not zero.  The weights it stores are the softmax of that tile along its lanes,
  and the context it stores is the product of the weights with the value block: at `(p, e)` the sum over the keys
  of the weight times the value entry.
-/
import proofs.«128522_j60739427500310_2_alg».proof.Proof.Gen.KernelIdeal.Skeleton
import proofs.«128522_j60739427500310_2_alg».proof.Proof.LibSoftmaxTile
import proofs.«128522_j60739427500310_2_alg».proof.Proof.LibMatmul2
import Idealize.ShloMosaic.Lib.ValueLayout

noncomputable section

open scoped BigOperators

namespace Cert.Attn.Tile

open Cert.KernelIdeal Cert.KernelIdeal.Gen Idealize.ShloMosaic Idealize.ShloMosaic.ValueIdx
open Cert.Attn

/-- The score of query row `p` of the block against key `k`: the scaled dot product, or the fill value where the
    widened mask word is not zero. -/
def tileScore (P0 : Vec Ideal S1x512x64 .f32) (P1 : Vec Ideal S1x2048x64 .f32) (P3 : Vec Ideal S1x512x2048 .i32)
    (p : Fin 512) (k : Fin 2048) : EReal :=
  Scalar.select (IntOp.cmpi .ne (P3 (ix3 (0 : Fin 1) p k)) 0#32) fill
    (∑ d : Fin 64, (P0 (ix3 (0 : Fin 1) p d) * eighth) * P1 (ix3 (0 : Fin 1) k d))

/-- The masked score tile as the body builds it. -/
def maskedTile (P0 : Vec Ideal S1x512x64 .f32) (P1 : Vec Ideal S1x2048x64 .f32) (P3 : Vec Ideal S1x512x2048 .i32) :
    FVec Ideal S512x2048 .f32 :=
  select (cmpi .ne (shapeCast S512x2048 P3 shapeCasts_S1x512x2048_S512x2048) (constantI S512x2048 32 0#32))
    (broadcast S512x2048 (Scalar.ofBits (F := Ideal) .f32 0xCE6E6B28#32))
    (matmul (F := Ideal) dot_S512x64_S2048x64_S512x2048_1_1_0_0_n_n none
      (truncf .bf16 (mulf (shapeCast S512x64 P0 shapeCasts_S1x512x64_S512x64)
        (broadcast S512x64 (Scalar.ofBits (F := Ideal) .f32 0x3E000000#32))) bitsLt_bf16_f32)
      (truncf .bf16 (shapeCast S2048x64 P1 shapeCasts_S1x2048x64_S2048x64) bitsLt_bf16_f32)
      (constant (F := Ideal) S512x2048 .f32 0x00000000#32))

/-- The masked score tile at `(p, k)` is the score of row `p` against key `k`. -/
theorem maskedTile_apply (P0 : Vec Ideal S1x512x64 .f32) (P1 : Vec Ideal S1x2048x64 .f32) (P3 : Vec Ideal S1x512x2048 .i32)
    (p : Fin 512) (k : Fin 2048) : maskedTile P0 P1 P3 (ix2 p k) = tileScore P0 P1 P3 p k := by
  have hm : shapeCast S512x2048 P3 shapeCasts_S1x512x2048_S512x2048 (ix2 p k) = P3 (ix3 (0 : Fin 1) p k) :=
    shapeCast_1ab_ab_apply P3 shapeCasts_S1x512x2048_S512x2048 p k
  have hq : ∀ d : Fin 64, shapeCast S512x64 P0 shapeCasts_S1x512x64_S512x64 (ix2 p d) = P0 (ix3 (0 : Fin 1) p d) :=
    fun d => shapeCast_1ab_ab_apply P0 shapeCasts_S1x512x64_S512x64 p d
  have hk : ∀ d : Fin 64, shapeCast S2048x64 P1 shapeCasts_S1x2048x64_S2048x64 (ix2 k d) = P1 (ix3 (0 : Fin 1) k d) :=
    fun d => shapeCast_1ab_ab_apply P1 shapeCasts_S1x2048x64_S2048x64 k d
  have hdot := LibMatmul2.matmul_nt_apply dot_S512x64_S2048x64_S512x2048_1_1_0_0_n_n_wf none
    (truncf .bf16 (mulf (shapeCast S512x64 P0 shapeCasts_S1x512x64_S512x64)
      (broadcast S512x64 (Scalar.ofBits (F := Ideal) .f32 0x3E000000#32))) bitsLt_bf16_f32)
    (truncf .bf16 (shapeCast S2048x64 P1 shapeCasts_S1x2048x64_S2048x64) bitsLt_bf16_f32) p k
  show Scalar.select (IntOp.cmpi .ne (shapeCast S512x2048 P3 shapeCasts_S1x512x2048_S512x2048 (ix2 p k)) 0#32)
    (Scalar.ofBits (F := Ideal) .f32 0xCE6E6B28#32) _ = _
  rw [hm]
  unfold tileScore
  refine congrArg (Scalar.select _ _) (hdot.trans (Finset.sum_congr rfl fun d _ => ?_))
  show (shapeCast S512x64 P0 shapeCasts_S1x512x64_S512x64 (ix2 p d) * _) * shapeCast S2048x64 P1 shapeCasts_S1x2048x64_S2048x64 (ix2 k d) = _
  rw [hq, hk]
  rfl

/-- The weights' payload is the lane softmax of the masked score tile. -/
theorem weights_payload_eq (P0 : Vec Ideal S1x512x64 .f32) (P1 : Vec Ideal S1x2048x64 .f32) (P3 : Vec Ideal S1x512x2048 .i32) :
    k0_pay2 (F := Ideal) P0 P1 P3
      = divf (Cert.Lib.SoftmaxTile.expTile (maskedTile P0 P1 P3) reduces_S512x2048_S512 (.inl rfl) rfl
          shapeCasts_S512_S512x1 broadcasts_S512x1_S512x2048)
        (broadcastTo S512x2048 (shapeCast S512x1 (multiReduction (F := Ideal) .add [1] S512
          (Cert.Lib.SoftmaxTile.expTile (maskedTile P0 P1 P3) reduces_S512x2048_S512 (.inl rfl) rfl
            shapeCasts_S512_S512x1 broadcasts_S512x1_S512x2048) 0x00000000#32 reduces_S512x2048_S512 (.inl rfl) rfl)
          shapeCasts_S512_S512x1) broadcasts_S512x1_S512x2048) := rfl

/-- The weights the body stores, at `(p, q)`: the softmax of row `p`'s scores at key `q`. -/
theorem weights_payload_apply (P0 : Vec Ideal S1x512x64 .f32) (P1 : Vec Ideal S1x2048x64 .f32) (P3 : Vec Ideal S1x512x2048 .i32)
    (p : Fin 512) (q : Fin 2048) :
    k0_pay2 (F := Ideal) P0 P1 P3 (ix2 p q) = softmaxRow (tileScore P0 P1 P3 p) q := by
  rw [weights_payload_eq]
  refine (Cert.Lib.SoftmaxTile.softmaxTile_apply (maskedTile P0 P1 P3) reduces_S512x2048_S512 (.inl rfl) rfl rfl
    shapeCasts_S512_S512x1 broadcasts_S512x1_S512x2048 p q).trans ?_
  refine congrArg (fun s => softmaxRow s q) (funext fun k => maskedTile_apply P0 P1 P3 p k)

/-- The context the body stores, at `(p, e)`: the sum over the keys of the weight times the value entry. -/
theorem context_payload_apply (P0 : Vec Ideal S1x512x64 .f32) (P1 P2 : Vec Ideal S1x2048x64 .f32) (P3 : Vec Ideal S1x512x2048 .i32)
    (p : Fin 512) (e : Fin 64) :
    k0_pay4 (F := Ideal) P0 P1 P2 P3 (ix2 p e)
      = ∑ k : Fin 2048, softmaxRow (tileScore P0 P1 P3 p) k * P2 (ix3 (0 : Fin 1) k e) := by
  have hv : ∀ k : Fin 2048, shapeCast S2048x64 P2 shapeCasts_S1x2048x64_S2048x64 (ix2 k e) = P2 (ix3 (0 : Fin 1) k e) :=
    fun k => shapeCast_1ab_ab_apply P2 shapeCasts_S1x2048x64_S2048x64 k e
  have hdot := LibMatmul2.matmul_nn_apply dot_S512x2048_S2048x64_S512x64_1_0_0_1_n_n_wf none
    (truncf .bf16 (k0_pay2 (F := Ideal) P0 P1 P3) bitsLt_bf16_f32)
    (truncf .bf16 (shapeCast S2048x64 P2 shapeCasts_S1x2048x64_S2048x64) bitsLt_bf16_f32) p e
  refine (show k0_pay4 (F := Ideal) P0 P1 P2 P3 (ix2 p e) = _ from hdot).trans (Finset.sum_congr rfl fun k _ => ?_)
  show k0_pay2 (F := Ideal) P0 P1 P3 (ix2 p k) * shapeCast S2048x64 P2 shapeCasts_S1x2048x64_S2048x64 (ix2 k e) = _
  rw [weights_payload_apply, hv]

/-- When the query block's row `p` is row `r` of batch `b` of the queries, the key block is batch `b` of the keys and
    the mask block's row `p` is row `(b, r)` of the mask widened, row `p`'s scores are the scaled scores of `(b, r)`. -/
theorem tileScore_eq (Q K : SQ.Idx → EReal) (M : SA.Idx → BitVec 1)
    (P0 : Vec Ideal S1x512x64 .f32) (P1 : Vec Ideal S1x2048x64 .f32) (P3 : Vec Ideal S1x512x2048 .i32)
    (p : Fin 512) (b : Fin 16) (r : Fin 2048)
    (h0 : ∀ d : Fin 64, P0 (ix3 (0 : Fin 1) p d) = Q (ix3 b r d))
    (h1 : ∀ (k : Fin 2048) (d : Fin 64), P1 (ix3 (0 : Fin 1) k d) = K (ix3 b k d))
    (h3 : ∀ k : Fin 2048, P3 (ix3 (0 : Fin 1) p k) = (M (ix3 b r k)).setWidth 32) :
    tileScore P0 P1 P3 p = scoreScaled Q K M b r := by
  funext k
  unfold tileScore scoreScaled
  simp only [h0, h1, h3]

/-- Under the same reading of the blocks, the stored weights at `(u, p, q)` are the weights of the scaled score at
    `(b, r, q)`. -/
theorem weights_block_eq (Q K : SQ.Idx → EReal) (M : SA.Idx → BitVec 1)
    (P0 : Vec Ideal S1x512x64 .f32) (P1 : Vec Ideal S1x2048x64 .f32) (P3 : Vec Ideal S1x512x2048 .i32)
    (u : Fin 1) (p : Fin 512) (q : Fin 2048) (b : Fin 16) (r : Fin 2048)
    (h0 : ∀ d : Fin 64, P0 (ix3 (0 : Fin 1) p d) = Q (ix3 b r d))
    (h1 : ∀ (k : Fin 2048) (d : Fin 64), P1 (ix3 (0 : Fin 1) k d) = K (ix3 b k d))
    (h3 : ∀ k : Fin 2048, P3 (ix3 (0 : Fin 1) p k) = (M (ix3 b r k)).setWidth 32) :
    k0_pay3 (F := Ideal) P0 P1 P3 (ix3 u p q) = weights (scoreScaled Q K M) (ix3 b r q) := by
  refine (shapeCast_ab_1ab_apply (k0_pay2 (F := Ideal) P0 P1 P3) shapeCasts_S512x2048_S1x512x2048 u p q).trans ?_
  rw [weights_payload_apply, tileScore_eq Q K M P0 P1 P3 p b r h0 h1 h3]
  rfl

/-- And, the value block being batch `b` of the values, the stored context at `(u, p, e)` is the context of the scaled
    score at `(b, r, e)`. -/
theorem context_block_eq (Q K V : SQ.Idx → EReal) (M : SA.Idx → BitVec 1)
    (P0 : Vec Ideal S1x512x64 .f32) (P1 P2 : Vec Ideal S1x2048x64 .f32) (P3 : Vec Ideal S1x512x2048 .i32)
    (u : Fin 1) (p : Fin 512) (e : Fin 64) (b : Fin 16) (r : Fin 2048)
    (h0 : ∀ d : Fin 64, P0 (ix3 (0 : Fin 1) p d) = Q (ix3 b r d))
    (h1 : ∀ (k : Fin 2048) (d : Fin 64), P1 (ix3 (0 : Fin 1) k d) = K (ix3 b k d))
    (h2 : ∀ k : Fin 2048, P2 (ix3 (0 : Fin 1) k e) = V (ix3 b k e))
    (h3 : ∀ k : Fin 2048, P3 (ix3 (0 : Fin 1) p k) = (M (ix3 b r k)).setWidth 32) :
    k0_pay1 (F := Ideal) (k0_pay4 (F := Ideal) P0 P1 P2 P3) (ix3 u p e) = context (scoreScaled Q K M) V (ix3 b r e) := by
  refine (shapeCast_ab_1ab_apply (k0_pay4 (F := Ideal) P0 P1 P2 P3) shapeCasts_S512x64_S1x512x64 u p e).trans ?_
  rw [context_payload_apply, tileScore_eq Q K M P0 P1 P3 p b r h0 h1 h3]
  simp only [h2]
  rfl

end Cert.Attn.Tile

end
-- ==== Proof.KernelArray.lean ====
/-
  From the grid's blocks to the whole result arrays.

  Grid point `(b, s)` (sixteen batches, four tiles of 512 query rows) is handed rows `512·s … 512·s + 511` of batch
  `b` of the queries and of the widened mask, and all of batch `b` of the keys and of the values; it writes the same
  rows of batch `b` of the weights and of the context.  The mask reaches the kernel widened from one bit to 32 by
  the one host operation that runs before it.  Read through these blocks, what a point writes back is the block of
  ONE function of the argument arrays — the weights, and the context, of the scaled score — and the 64 blocks
  cover each result array: the point covering row `r` of batch `b` is `(b, r / 512)`.
-/
import proofs.«128522_j60739427500310_2_alg».proof.Proof.Gen.KernelIdeal.Value
import proofs.«128522_j60739427500310_2_alg».proof.Proof.KernelTile

noncomputable section

open scoped BigOperators

namespace Cert.Attn.Ker

open Cert.KernelIdeal Cert.KernelIdeal.Gen Idealize.ShloMosaic Idealize.ShloMosaic.TcCoe Idealize.SL.Sem
open Idealize.ShloMosaic.ValueIdx
open Idealize.ShloMosaic.Pipeline (Dat)
open Cert.Attn

variable (m : (ℓ : Loc nD τ sig) → Buf (Elt Ideal) ℓ) (ρ : Dev nD → PrngReg)

/-- The queries, keys, values and mask as launched, on core `c`. -/
abbrev argQ (c : Dev nD) : SQ.Idx → EReal := m ((c : Thread nD τ).loc main_arg0)
abbrev argK (c : Dev nD) : SQ.Idx → EReal := m ((c : Thread nD τ).loc main_arg1)
abbrev argV (c : Dev nD) : SQ.Idx → EReal := m ((c : Thread nD τ).loc main_arg2)
abbrev argM (c : Dev nD) : SA.Idx → BitVec 1 := m ((c : Thread nD τ).loc main_arg3)

theorem zero_offsets : (![0, 0, 0] : Fin 3 → Nat) = fun _ => 0 := funext fun a => by fin_cases a <;> rfl

/-- The mask as the region finds it: each bit widened to a 32-bit word. -/
theorem widened_mask (c : Dev nD) :
    (V m c main_v0 : S16x2048x2048.Idx → BitVec 32) = extui 32 (m ((c : Thread nD τ).loc main_arg3)) natLt_1_32 := by
  dsimp only [Gen.V, Gen.hostOps0]; after_results

/-- The block indices over the grid: queries, mask, context and weights move together, over batch and row tile;
    keys and values over the batch only; the last axis is never tiled. -/
theorem index_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = win0_5.index t (1 : Fin 3)
    ∧ win0_4.index t (2 : Fin 3) = 0
    ∧ win0_5.index t (0 : Fin 3) ≤ 15 ∧ win0_5.index t (1 : Fin 3) ≤ 3 ∧ win0_5.index t (2 : Fin 3) = 0 :=
  (by decide +kernel : ∀ t : Fin grid0.N, _)

/-- Every (batch, row tile) pair is some grid point's. -/
theorem index_onto : ∀ (q0 : Fin 16) (q1 : Fin 4), ∃ t : Fin cfg0.N,
    win0_5.index t = ![q0.val, q1.val, 0] ∧ win0_4.index t = ![q0.val, q1.val, 0] :=
  (by decide +kernel : ∀ (q0 : Fin 16) (q1 : Fin 4), ∃ t : Fin grid0.N,
    win0_5.index t = ![q0.val, q1.val, 0] ∧ win0_4.index t = ![q0.val, q1.val, 0])

/-! ## The input blocks read off the arguments -/

/-- The query block at a point: rows of the point's tile of the point's batch. -/
theorem query_block (c : Dev nD) (t : Fin cfg0.N) (y : S1x512x64.Idx) (i : S16x2048x64.Idx)
    (h0 : (i 0).val = win0_5.index t (0 : Fin 3)) (h1 : (i 1).val = win0_5.index t (1 : Fin 3) * 512 + (y 1).val)
    (h2 : (i 2).val = (y 2).val) : iblk m c 0 t y = argQ m c i := by
  obtain ⟨e0, e1, e2, -⟩ := index_facts t
  have hy0 : (y 0).val < 1 := (y 0).isLt
  refine Eq.trans ?_ (congrFun (V_main_arg0 m c) i)
  show V m c main_arg0 (((cfg0.win 0).blk t).view.emb y) = V m c main_arg0 i
  refine congrArg _ (funext fun a => Fin.ext ?_)
  match a with
  | ⟨0, _⟩ => show win0_0.index t (0 : Fin 3) * 1 + 1 * (y 0).val = (i 0).val; omega
  | ⟨1, _⟩ => show win0_0.index t (1 : Fin 3) * 512 + 1 * (y 1).val = (i 1).val; omega
  | ⟨2, _⟩ => show win0_0.index t (2 : Fin 3) * 64 + 1 * (y 2).val = (i 2).val; omega

/-- The key block at a point: the whole of the point's batch. -/
theorem key_block (c : Dev nD) (t : Fin cfg0.N) (y : S1x2048x64.Idx) (i : S16x2048x64.Idx)
    (h0 : (i 0).val = win0_5.index t (0 : Fin 3)) (h1 : (i 1).val = (y 1).val) (h2 : (i 2).val = (y 2).val) :
    iblk m c 1 t y = argK m c i := by
  obtain ⟨-, -, -, e0, e1, e2, -⟩ := index_facts t
  have hy0 : (y 0).val < 1 := (y 0).isLt
  refine Eq.trans ?_ (congrFun (V_main_arg1 m c) i)
  show V m c main_arg1 (((cfg0.win 1).blk t).view.emb y) = V m c main_arg1 i
  refine congrArg _ (funext fun a => Fin.ext ?_)
  match a with
  | ⟨0, _⟩ => show win0_1.index t (0 : Fin 3) * 1 + 1 * (y 0).val = (i 0).val; omega
  | ⟨1, _⟩ => show win0_1.index t (1 : Fin 3) * 2048 + 1 * (y 1).val = (i 1).val; omega
  | ⟨2, _⟩ => show win0_1.index t (2 : Fin 3) * 64 + 1 * (y 2).val = (i 2).val; omega

/-- The value block at a point: the whole of the point's batch. -/
theorem value_block (c : Dev nD) (t : Fin cfg0.N) (y : S1x2048x64.Idx) (i : S16x2048x64.Idx)
    (h0 : (i 0).val = win0_5.index t (0 : Fin 3)) (h1 : (i 1).val = (y 1).val) (h2 : (i 2).val = (y 2).val) :
    iblk m c 2 t y = argV m c i := by
  obtain ⟨-, -, -, -, -, -, e0, e1, e2, -⟩ := index_facts t
  have hy0 : (y 0).val < 1 := (y 0).isLt
  refine Eq.trans ?_ (congrFun (V_main_arg2 m c) i)
  show V m c main_arg2 (((cfg0.win 2).blk t).view.emb y) = V m c main_arg2 i
  refine congrArg _ (funext fun a => Fin.ext ?_)
  match a with
  | ⟨0, _⟩ => show win0_2.index t (0 : Fin 3) * 1 + 1 * (y 0).val = (i 0).val; omega
  | ⟨1, _⟩ => show win0_2.index t (1 : Fin 3) * 2048 + 1 * (y 1).val = (i 1).val; omega
  | ⟨2, _⟩ => show win0_2.index t (2 : Fin 3) * 64 + 1 * (y 2).val = (i 2).val; omega

/-- The mask block at a point: rows of the point's tile of the point's batch, each bit widened. -/
theorem mask_block (c : Dev nD) (t : Fin cfg0.N) (y : S1x512x2048.Idx) (i : S16x2048x2048.Idx)
    (h0 : (i 0).val = win0_5.index t (0 : Fin 3)) (h1 : (i 1).val = win0_5.index t (1 : Fin 3) * 512 + (y 1).val)
    (h2 : (i 2).val = (y 2).val) : iblk m c 3 t y = (argM m c i).setWidth 32 := by
  obtain ⟨-, -, -, -, -, -, -, -, -, e0, e1, e2, -⟩ := index_facts t
  have hy0 : (y 0).val < 1 := (y 0).isLt
  refine Eq.trans ?_ (congrFun (widened_mask m c) i)
  show V m c main_v0 (((cfg0.win 3).blk t).view.emb y) = V m c main_v0 i
  refine congrArg _ (funext fun a => Fin.ext ?_)
  match a with
  | ⟨0, _⟩ => show win0_3.index t (0 : Fin 3) * 1 + 1 * (y 0).val = (i 0).val; omega
  | ⟨1, _⟩ => show win0_3.index t (1 : Fin 3) * 512 + 1 * (y 1).val = (i 1).val; omega
  | ⟨2, _⟩ => show win0_3.index t (2 : Fin 3) * 2048 + 1 * (y 2).val = (i 2).val; omega

/-! ## What a point writes back -/

/-- The weights a point stores, at `(u, p, q)` of its block, are the weights of the scaled score at the array index
    under it. -/
theorem weights_at (c : Dev nD) (t : Fin cfg0.N) (u : Fin 1) (p : Fin 512) (q : Fin 2048) :
    k0_pay3 (F := Ideal) (iblk m c 0 t) (iblk m c 1 t) (iblk m c 3 t) (ix3 u p q)
      = weights (scoreScaled (argQ m c) (argK m c) (argM m c)) (((cfg0.win 5).blk t).view.emb (ix3 u p q)) := by
  obtain ⟨-, -, -, -, -, -, -, -, -, -, -, -, -, -, -, b0, b1, b2⟩ := index_facts t
  have hu : u.val = 0 := by omega
  have hb : win0_5.index t (0 : Fin 3) < 16 := by omega
  have hr : win0_5.index t (1 : Fin 3) * 512 + p.val < 2048 := by have := p.isLt; omega
  have hi : ((cfg0.win 5).blk t).view.emb (ix3 u p q)
      = ix3 (⟨win0_5.index t (0 : Fin 3), hb⟩ : Fin 16) (⟨win0_5.index t (1 : Fin 3) * 512 + p.val, hr⟩ : Fin 2048) q :=
    funext fun a => Fin.ext (by
      match a with
      | ⟨0, _⟩ => show win0_5.index t (0 : Fin 3) * 1 + 1 * u.val = win0_5.index t (0 : Fin 3); omega
      | ⟨1, _⟩ => show win0_5.index t (1 : Fin 3) * 512 + 1 * p.val = win0_5.index t (1 : Fin 3) * 512 + p.val; omega
      | ⟨2, _⟩ => show win0_5.index t (2 : Fin 3) * 2048 + 1 * q.val = q.val; omega)
  rw [hi]
  exact Cert.Attn.Tile.weights_block_eq (argQ m c) (argK m c) (argM m c) (iblk m c 0 t) (iblk m c 1 t) (iblk m c 3 t) u p q
    (⟨win0_5.index t (0 : Fin 3), hb⟩ : Fin 16) (⟨win0_5.index t (1 : Fin 3) * 512 + p.val, hr⟩ : Fin 2048)
    (fun d => query_block m c t (ix3 (0 : Fin 1) p d)
      (ix3 (⟨win0_5.index t (0 : Fin 3), hb⟩ : Fin 16) (⟨win0_5.index t (1 : Fin 3) * 512 + p.val, hr⟩ : Fin 2048) d) rfl rfl rfl)
    (fun k d => key_block m c t (ix3 (0 : Fin 1) k d) (ix3 (⟨win0_5.index t (0 : Fin 3), hb⟩ : Fin 16) k d) rfl rfl rfl)
    (fun k => mask_block m c t (ix3 (0 : Fin 1) p k)
      (ix3 (⟨win0_5.index t (0 : Fin 3), hb⟩ : Fin 16) (⟨win0_5.index t (1 : Fin 3) * 512 + p.val, hr⟩ : Fin 2048) k) rfl rfl rfl)

/-- The context a point stores, at `(u, p, e)` of its block, is the context of the scaled score at the array index
    under it. -/
theorem context_at (c : Dev nD) (t : Fin cfg0.N) (u : Fin 1) (p : Fin 512) (e : Fin 64) :
    k0_pay1 (F := Ideal) (k0_pay4 (F := Ideal) (iblk m c 0 t) (iblk m c 1 t) (iblk m c 2 t) (iblk m c 3 t)) (ix3 u p e)
      = context (scoreScaled (argQ m c) (argK m c) (argM m c)) (argV m c) (((cfg0.win 4).blk t).view.emb (ix3 u p e)) := by
  obtain ⟨-, -, -, -, -, -, -, -, -, -, -, -, e0, e1, e2, b0, b1, b2⟩ := index_facts t
  have hu : u.val = 0 := by omega
  have hb : win0_5.index t (0 : Fin 3) < 16 := by omega
  have hr : win0_5.index t (1 : Fin 3) * 512 + p.val < 2048 := by have := p.isLt; omega
  have hi : ((cfg0.win 4).blk t).view.emb (ix3 u p e)
      = ix3 (⟨win0_5.index t (0 : Fin 3), hb⟩ : Fin 16) (⟨win0_5.index t (1 : Fin 3) * 512 + p.val, hr⟩ : Fin 2048) e :=
    funext fun a => Fin.ext (by
      match a with
      | ⟨0, _⟩ => show win0_4.index t (0 : Fin 3) * 1 + 1 * u.val = win0_5.index t (0 : Fin 3); omega
      | ⟨1, _⟩ => show win0_4.index t (1 : Fin 3) * 512 + 1 * p.val = win0_5.index t (1 : Fin 3) * 512 + p.val; omega
      | ⟨2, _⟩ => show win0_4.index t (2 : Fin 3) * 64 + 1 * e.val = e.val; omega)
  rw [hi]
  exact Cert.Attn.Tile.context_block_eq (argQ m c) (argK m c) (argV m c) (argM m c)
    (iblk m c 0 t) (iblk m c 1 t) (iblk m c 2 t) (iblk m c 3 t) u p e
    (⟨win0_5.index t (0 : Fin 3), hb⟩ : Fin 16) (⟨win0_5.index t (1 : Fin 3) * 512 + p.val, hr⟩ : Fin 2048)
    (fun d => query_block m c t (ix3 (0 : Fin 1) p d)
      (ix3 (⟨win0_5.index t (0 : Fin 3), hb⟩ : Fin 16) (⟨win0_5.index t (1 : Fin 3) * 512 + p.val, hr⟩ : Fin 2048) d) rfl rfl rfl)
    (fun k d => key_block m c t (ix3 (0 : Fin 1) k d) (ix3 (⟨win0_5.index t (0 : Fin 3), hb⟩ : Fin 16) k d) rfl rfl rfl)
    (fun k => value_block m c t (ix3 (0 : Fin 1) k e) (ix3 (⟨win0_5.index t (0 : Fin 3), hb⟩ : Fin 16) k e) rfl rfl rfl)
    (fun k => mask_block m c t (ix3 (0 : Fin 1) p k)
      (ix3 (⟨win0_5.index t (0 : Fin 3), hb⟩ : Fin 16) (⟨win0_5.index t (1 : Fin 3) * 512 + p.val, hr⟩ : Fin 2048) k) rfl rfl rfl)

/-- What point `t` writes back to the weights is block `t` of the weights of the scaled score. -/
theorem flushed_weights (c : Dev nD) (t : Fin cfg0.N) :
    (dats m 0 c).flushed 5 t
      = ((cfg0.win 5).blk t).view.read (Elt Ideal) (weights (scoreScaled (argQ m c) (argK m c) (argM m c))) := by
  rw [Cert.KernelIdeal.Value.flushed5]
  unfold out0_5
  rw [View.canon_unit_zero zero_offsets]
  simp only [View.ld_unit_zero (S := S1x512x64) zero_offsets, View.ld_unit_zero (S := S1x2048x64) zero_offsets,
    View.ld_unit_zero (S := S1x512x2048) zero_offsets]
  funext j
  obtain ⟨u, p, q, rfl⟩ : ∃ (u : Fin 1) (p : Fin 512) (q : Fin 2048), j = ix3 u p q := ⟨j 0, j 1, j 2, eq_ix3 j⟩
  exact weights_at m c t u p q

/-- What point `t` writes back to the context is block `t` of the context of the scaled score. -/
theorem flushed_context (c : Dev nD) (t : Fin cfg0.N) :
    (dats m 0 c).flushed 4 t
      = ((cfg0.win 4).blk t).view.read (Elt Ideal) (context (scoreScaled (argQ m c) (argK m c) (argM m c)) (argV m c)) := by
  rw [Cert.KernelIdeal.Value.flushed4]
  unfold out0_4
  rw [View.canon_unit_zero zero_offsets]
  simp only [View.ld_unit_zero (S := S1x512x64) zero_offsets, View.ld_unit_zero (S := S1x2048x64) zero_offsets,
    View.ld_unit_zero (S := S1x512x2048) zero_offsets]
  funext j
  obtain ⟨u, p, e, rfl⟩ : ∃ (u : Fin 1) (p : Fin 512) (e : Fin 64), j = ix3 u p e := ⟨j 0, j 1, j 2, eq_ix3 j⟩
  exact context_at m c t u p e

/-! ## The blocks cover the arrays -/

theorem mem_weights_block (t : Fin cfg0.N) (i : S16x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v1_1).slice (win0_5.rect t)).set ↔ _
  rw [View.set_slice_whole, Rect.mem_set_unit]
  exact Iff.rfl

theorem mem_context_block (t : Fin cfg0.N) (i : S16x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v1_0).slice (win0_4.rect t)).set ↔ _
  rw [View.set_slice_whole, Rect.mem_set_unit]
  exact Iff.rfl

/-- Every index of the weights is in the block of the point of its batch and row tile. -/
theorem weights_covered (i : S16x2048x2048.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht, -⟩ := index_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_weights_block]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every index of the context is in the block of the point of its batch and row tile. -/
theorem context_covered (i : S16x2048x64.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, -, ht⟩ := index_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_context_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-! ## The arrays after the run, and the run -/

/-- The weights array after the run. -/
theorem final_weights (c : Dev nD) :
    (dats m 0 c).arrAt 5 cfg0.N = weights (scoreScaled (argQ m c) (argK m c) (argM m c)) :=
  (dats m 0 c).arrAt_eq_of_cover 5 (weights (scoreScaled (argQ m c) (argK m c) (argM m c)))
    (fun t _ => flushed_weights m c t) weights_covered

/-- The context array after the run. -/
theorem final_context (c : Dev nD) :
    (dats m 0 c).arrAt 4 cfg0.N = context (scoreScaled (argQ m c) (argK m c) (argM m c)) (argV m c) :=
  (dats m 0 c).arrAt_eq_of_cover 4 (context (scoreScaled (argQ m c) (argK m c) (argM m c)) (argV m c))
    (fun t _ => flushed_context m c t) context_covered

/-- Every weakly fair execution of the kernel's program ends with the context and the weights of the scaled score
    in its two results, the arguments unchanged. -/
theorem run : θ_run defs (onTc (τ := τ) (main (F := Ideal))) ⟨m, fun _ => 0, ρ⟩ fun r => ∀ c : Dev nD,
      r.2.mem ((c : Thread nD τ).loc main_v1_0) = context (scoreScaled (argQ m c) (argK m c) (argM m c)) (argV m c)
      ∧ r.2.mem ((c : Thread nD τ).loc main_v1_1) = weights (scoreScaled (argQ m c) (argK m c) (argM m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_context m c), (h c).2.1.trans (final_weights m c), (h c).2.2⟩)
    (Cert.KernelIdeal.Value.run_blocks m ρ)

end Cert.Attn.Ker

end
-- ==== Proof.LibLaneMax3.lean ====
/-
  The host's maximum along the last axis of an `[a, b, c]` array, read at an entry `(p, q)` of the result, at the
  ideal values: the fold of `max` from the initial value over the `c` entries `x (p, q, k)` of that lane, in any
  order.  Stated with the lane's entries written `x (ix3 p q k)`, so that it meets a kernel's lane maximum of the
  tile holding the same entries as one fold.
-/
import Idealize.ShloMosaic.Lib.ValueIdx
import Idealize.ShloMosaic.PureOps.Ideal.Laws

noncomputable section

namespace Cert.Lib.LaneMax3

open Idealize.ShloMosaic Idealize.ShloMosaic.ValueIdx

/-- The host's maximum over axis 2 of an `[a, b, c]` array, at `(p, q)`: the fold of `max` from the initial value
    over the lane's `c` entries. -/
theorem hostLaneMax3_apply {a b c : ℕ} {u : Shape} (x : (⟨3, ![a, b, c]⟩ : Shape).Idx → Ideal .f32)
    (init : u.Idx → Ideal .f32) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  refine congrArg (fun g => (Finset.univ : Finset (Fin c)).fold max (init (Shape.Idx.first hu)) g) (funext fun k => ?_)
  exact congrArg x (funext fun ax => Fin.ext (by match ax with | ⟨0, _⟩ => rfl | ⟨1, _⟩ => rfl | ⟨2, _⟩ => rfl))

end Cert.Lib.LaneMax3

end
-- ==== Proof.RefSide.lean ====
/-
  The reference's two results are the attention weights and the context of the divided score.

  Read one operation at a time, the reference computes at `(b, r, k)`: the dot product of query row `r` and key row
  `k` divided by 8, the fill value where the mask bit is set; the row's maximum folded from −∞ (the further maximum
  with −∞ that follows changes nothing, −∞ being where the fold starts); the exponential of the score less that
  maximum; the row's sum of the exponentials started from zero; their quotient; and, for the context, the sum over
  the keys of the quotient times the value entry.
-/
import proofs.«128522_j60739427500310_2_alg».proof.Proof.Gen.ReferenceIdeal.Read
import proofs.«128522_j60739427500310_2_alg».proof.Proof.AttnSpec
import proofs.«128522_j60739427500310_2_alg».proof.Proof.LibLaneMax3

noncomputable section

open scoped BigOperators

namespace Cert.Attn.Ref

open Cert.ReferenceIdeal Cert.ReferenceIdeal.Gen Cert.ReferenceIdeal.Read Idealize.ShloMosaic Idealize.ShloMosaic.ValueIdx
open Cert.Attn

variable (x0 x1 x2 : SQ.Idx → EReal) (x3 : SA.Idx → BitVec 1)

/-- The masked, divided score at `(b, r, k)`. -/
theorem masked_apply (b : Fin 16) (r k : Fin 2048) :
    val_main_v3 (F := Ideal) x0 x1 x3 (ix3 b r k) = scoreDivided x0 x1 x3 b r k := by
  have el : ∀ d : Fin 64, lidx_main_v0 (ix3 b r k) d = ix3 b r d := fun d => funext fun a => Fin.ext (by
    match a with | ⟨0, _⟩ => rfl | ⟨1, _⟩ => rfl | ⟨2, _⟩ => rfl)
  have er : ∀ d : Fin 64, ridx_main_v0 (ix3 b r k) d = ix3 b k d := fun d => funext fun a => Fin.ext (by
    match a with | ⟨0, _⟩ => rfl | ⟨1, _⟩ => rfl | ⟨2, _⟩ => rfl)
  rw [val_main_v3_apply, val_main_call0_v1_apply, val_main_call0_v0_apply, val_main_cst_0_apply, val_main_v2_apply,
    val_main_v0_apply, val_main_v1_apply, val_main_cst_apply]
  simp only [el, er, Ideal.ofBits_def, Ideal.hostDivf_def]
  rfl

/-- The row's maximum at `(b, r)`. -/
theorem rowmax_apply (b : Fin 16) (r : Fin 2048) :
    val_main_v6 (F := Ideal) x0 x1 x3 (ix2 b r)
      = (Finset.univ : Finset (Fin 2048)).fold max negInf (scoreDivided x0 x1 x3 b r) := by
  rw [val_main_v6_apply, val_main_v5_apply, val_main_cst_2_apply]
  unfold val_main_v4
  refine (congrArg (FloatOps.maximumf _) (Cert.Lib.LaneMax3.hostLaneMax3_apply (val_main_v3 (F := Ideal) x0 x1 x3)
    (val_main_cst_1 (F := Ideal)) reducesTo_S16x2048x2048_S16x2048_d2 (by decide) h_S_ b r)).trans ?_
  simp only [masked_apply, val_main_cst_1_apply, Ideal.ofBits_def, Ideal.maximumf_def]
  exact max_eq_right ((Finset.le_fold_max _).mpr (Or.inl le_rfl))

/-- The exponential of the score less the row's maximum, at `(b, r, k)`. -/
theorem expo_apply (b : Fin 16) (r k : Fin 2048) :
    val_main_v10 (F := Ideal) x0 x1 x3 (ix3 b r k)
      = Ideal.exp (scoreDivided x0 x1 x3 b r k - (Finset.univ : Finset (Fin 2048)).fold max negInf (scoreDivided x0 x1 x3 b r)) := by
  have e : idx_main_v7 (idx_main_v8 (ix3 b r k)) = ix2 b r := funext fun a => Fin.ext (by
    match a with | ⟨0, _⟩ => rfl | ⟨1, _⟩ => rfl)
  rw [val_main_v10_apply, val_main_v9_apply, val_main_v8_apply, val_main_v7_apply, e, masked_apply, rowmax_apply]
  rfl

/-- The row's sum of the exponentials, at `(b, r)`. -/
theorem den_apply (b : Fin 16) (r : Fin 2048) :
    val_main_v11 (F := Ideal) x0 x1 x3 (ix2 b r)
      = ∑ k : Fin 2048, Ideal.exp (scoreDivided x0 x1 x3 b r k - (Finset.univ : Finset (Fin 2048)).fold max negInf (scoreDivided x0 x1 x3 b r)) := by
  have e : ∀ k : Fin 2048, idx_main_v11 (ix2 b r) k = ix3 b r k := fun k => funext fun a => Fin.ext (by
    match a with | ⟨0, _⟩ => rfl | ⟨1, _⟩ => rfl | ⟨2, _⟩ => rfl)
  rw [val_main_v11_apply, val_main_cst_3_apply]
  simp only [e, expo_apply, Ideal.ofBits_def]
  rw [Ideal.ofBits_zero_f32, zero_add]

/-- The second result: the attention weights of the divided score. -/
theorem weights_eq : val_main_v14 (F := Ideal) x0 x1 x3 = weights (scoreDivided x0 x1 x3) := by
  funext i
  obtain ⟨b, r, k, rfl⟩ : ∃ (b : Fin 16) (r k : Fin 2048), i = ix3 b r k := ⟨i 0, i 1, i 2, eq_ix3 i⟩
  have e : idx_main_v12 (idx_main_v13 (ix3 b r k)) = ix2 b r := funext fun a => Fin.ext (by
    match a with | ⟨0, _⟩ => rfl | ⟨1, _⟩ => rfl)
  rw [val_main_v14_apply, val_main_v13_apply, val_main_v12_apply, e, expo_apply, den_apply]
  rfl

/-- The first result: the context of the divided score and the values. -/
theorem context_eq : val_main_v15 (F := Ideal) x0 x1 x2 x3 = context (scoreDivided x0 x1 x3) x2 := by
  funext i
  obtain ⟨b, r, e, rfl⟩ : ∃ (b : Fin 16) (r : Fin 2048) (e : Fin 64), i = ix3 b r e := ⟨i 0, i 1, i 2, eq_ix3 i⟩
  have el : ∀ k : Fin 2048, lidx_main_v15 (ix3 b r e) k = ix3 b r k := fun k => funext fun a => Fin.ext (by
    match a with | ⟨0, _⟩ => rfl | ⟨1, _⟩ => rfl | ⟨2, _⟩ => rfl)
  have er : ∀ k : Fin 2048, ridx_main_v15 (ix3 b r e) k = ix3 b k e := fun k => funext fun a => Fin.ext (by
    match a with | ⟨0, _⟩ => rfl | ⟨1, _⟩ => rfl | ⟨2, _⟩ => rfl)
  rw [val_main_v15_apply, weights_eq]
  simp only [el, er]
  rfl

end Cert.Attn.Ref

end
-- ==== Proof.Finite.lean ====
/-
  From the precondition to real entries.

  The precondition is the conjunction of three tests, one per float argument: every entry's absolute value is below
  +∞.  An extended real whose absolute value `max x (−x)` is below +∞ is neither infinity — at either one the absolute
  value is +∞ itself — so it is a real number.  Hence under the precondition every query entry and every key entry is
  a real number.
-/
import proofs.«128522_j60739427500310_2_alg».proof.Pre_finite_inputs
import Idealize.ShloMosaic.PureOps.Ideal
import Idealize.ShloMosaic.Lib.ReduceAll
import Idealize.ShloMosaic.Lib.ValueIdx
import Idealize.ShloMosaic.Lib.Affine

noncomputable section

namespace Cert.Attn.Finite

open Idealize.ShloMosaic Cert.Pre_finite_inputs

instance : Subsingleton S_.Idx := ⟨fun a b => funext fun d => d.elim0⟩

/-- The pattern `0x7F800000` denotes +∞. -/
theorem inf_eq : Ideal.ofBits .f32 0x7F800000#32 = (⊤ : EReal) := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = r := by
  rw [inf_eq] at h
  induction x using EReal.rec with
  | bot => exfalso; revert h; simp [Ideal.cmp]
  | coe r => exact ⟨r, rfl⟩
  | top => exfalso; revert h; simp [Ideal.cmp]

variable [Facts]

/-- Under the precondition the first two float arguments hold real numbers only. -/
theorem real_of_pre (a0 a1 a2 : FVec Ideal S16x2048x64 .f32) (a3 : IVec S16x2048x2048 1)
    (h : fn (F := Ideal) a0 a1 a2 a3 = fun _ => 1#1) :
    (∀ i, ∃ r : ℝ, a0 i = r) ∧ (∀ i, ∃ r : ℝ, a1 i = r) := by
  have h1 := congrFun h ValueIdx.ix0
  dsimp only [fn] at h1
  obtain ⟨h12, -⟩ := IntOp.andi_eq_one.1 h1
  obtain ⟨hq, hk⟩ := IntOp.andi_eq_one.1 h12
  refine ⟨fun i => ?_, fun i => ?_⟩
  · exact real_of_abs_lt_inf (a0 i) (Host.reduce_andi_all _ _ _ _ _ hq i)
  · exact real_of_abs_lt_inf (a1 i) (Host.reduce_andi_all _ _ _ _ _ hk i)

end Cert.Attn.Finite

end
-- ==== Proof.lean ====
/-
  Masked scaled-dot-product attention, tiled over (batch, 512 query rows), against the plain formula.

  Both programs return the attention weights `softmax_k (s[b, r, k])` and the context `Σ_k weights[b, r, k] · V[b, k, e]`
  of a masked score `s`: the scaled dot product of query row `r` and key row `k`, replaced by −10⁹ where the mask is
  set.  The tiled program scales each query entry by ⅛ before the dot product and tests the mask after widening it to
  32 bits; the plain one divides the finished dot product by 8 and tests the mask bit.  Over the extended reals the
  softmax and the weighted sum are spelt alike on the two sides (a row maximum folded from −∞, exponentials, a row
  sum, a quotient; matrix products as finite sums), so the results are one function of the score, and the two scores
  agree on finite queries and keys, where ⅛ moves out of the finite sum of real products and dividing by 8 is
  multiplying by ⅛.  The precondition gives the finiteness.  The idealization rewrote nothing, and each program's run
  leaves its arguments as they were.
-/
import proofs.«128522_j60739427500310_2_alg».proof.Defs
import proofs.«128522_j60739427500310_2_alg».proof.Proof.Gen.Kernel
import proofs.«128522_j60739427500310_2_alg».proof.Proof.Gen.Kernel.Skeleton
import proofs.«128522_j60739427500310_2_alg».proof.Proof.Gen.Kernel.Launch
import proofs.«128522_j60739427500310_2_alg».proof.Proof.Gen.Kernel.Points
import proofs.«128522_j60739427500310_2_alg».proof.Proof.Gen.Kernel.Frame
import proofs.«128522_j60739427500310_2_alg».proof.Proof.Gen.KernelIdeal
import proofs.«128522_j60739427500310_2_alg».proof.Proof.Gen.KernelIdeal.Skeleton
import proofs.«128522_j60739427500310_2_alg».proof.Proof.Gen.KernelIdeal.Launch
import proofs.«128522_j60739427500310_2_alg».proof.Proof.Gen.KernelIdeal.Points
import proofs.«128522_j60739427500310_2_alg».proof.Proof.Gen.KernelIdeal.Frame
import proofs.«128522_j60739427500310_2_alg».proof.Proof.Gen.ReferenceIdeal
import proofs.«128522_j60739427500310_2_alg».proof.Proof.Gen.KernelIdeal.Value
import proofs.«128522_j60739427500310_2_alg».proof.Proof.Gen.ReferenceIdeal.Run
import proofs.«128522_j60739427500310_2_alg».proof.Proof.Gen.ReferenceIdeal.Read
import proofs.«128522_j60739427500310_2_alg».proof.Proof.Gen.Pre_finite_inputs
import proofs.«128522_j60739427500310_2_alg».proof.Proof.KernelArray
import proofs.«128522_j60739427500310_2_alg».proof.Proof.RefSide
import proofs.«128522_j60739427500310_2_alg».proof.Proof.Finite
import Idealize.ShloMosaic.Adequacy
import Idealize.ShloMosaic.Init

noncomputable section

namespace Cert.Proof

open Idealize.ShloMosaic Idealize.ShloMosaic.TcCoe Idealize.SL.Sem Cert.Attn

/-- The word-level program runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the context and the weights of one score: the
    kernel's run leaves those of the scaled score, the reference's those of the divided score, and under the
    precondition the queries and keys are real, so the two scores are one function. -/
theorem algebraic : Cert.algebraic_KernelIdeal_ReferenceIdeal := by
  intro m ρ m' ρ' hpre hagree
  refine ⟨fun c => context (scoreScaled (Ker.argQ m c) (Ker.argK m c) (Ker.argM m c)) (Ker.argV m c),
    fun c => weights (scoreScaled (Ker.argQ m c) (Ker.argK m c) (Ker.argM m c)), Ker.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hQ, hK⟩ := Finite.real_of_pre _ _ _ _ (hpre c)
    rw [(hagree c).1, (hagree c).2.1, (hagree c).2.2.1, (hagree c).2.2.2]
    refine (Ref.context_eq (Ker.argQ m c) (Ker.argK m c) (Ker.argV m c) (Ker.argM m c)).trans ?_
    show _ = context (scoreScaled (Ker.argQ m c) (Ker.argK m c) (Ker.argM m c)) (Ker.argV m c)
    rw [scoreScaled_eq_scoreDivided (Ker.argQ m c) (Ker.argK m c) (Ker.argM m c) hQ hK]
  · obtain ⟨hQ, hK⟩ := Finite.real_of_pre _ _ _ _ (hpre c)
    rw [(hagree c).1, (hagree c).2.1, (hagree c).2.2.2]
    refine (Ref.weights_eq (Ker.argQ m c) (Ker.argK m c) (Ker.argM m c)).trans ?_
    show _ = weights (scoreScaled (Ker.argQ m c) (Ker.argK m c) (Ker.argM m c))
    rw [scoreScaled_eq_scoreDivided (Ker.argQ m c) (Ker.argK m c) (Ker.argM m c) hQ hK]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
